-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S8x256 : Shape := ⟨2, ![8, 256]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_

variable [Facts]

def fn {F : FTy → Type} [FloatOps F] (main_arg0 : FVec F S32x4096x256 .f32) (main_arg1 : FVec F S8x256 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  main_v8
-- ==== Kernel.lean ====
abbrev S32x4096x256 : Shape := ⟨3, ![32, 4096, 256]⟩
abbrev S8x256 : Shape := ⟨2, ![8, 256]⟩
abbrev S16x1024x256 : Shape := ⟨3, ![16, 1024, 256]⟩
abbrev S1x8x256 : Shape := ⟨3, ![1, 8, 256]⟩
abbrev S128x8x256 : Shape := ⟨3, ![128, 8, 256]⟩
abbrev S1024x256 : Shape := ⟨2, ![1024, 256]⟩
abbrev S1x1024x256 : Shape := ⟨3, ![1, 1024, 256]⟩

abbrev nBuf : Space → Nat
  | .hbm => 3
  | .vmem => 3
  | .smem => 0
  | _ => 0

abbrev bufTy : (tb : Table) → Fin (tcTables nBuf tb) → BufTy
  | .hbm, ⟨0, _⟩ => ⟨S32x4096x256, .f32⟩
  | .hbm, ⟨1, _⟩ => ⟨S8x256, .f32⟩
  | .hbm, ⟨2, _⟩ => ⟨S32x4096x256, .f32⟩
  | .local _ .vmem, ⟨0, _⟩ => ⟨S8x256, .f32⟩
  | .local _ .vmem, ⟨1, _⟩ => ⟨S16x1024x256, .f32⟩
  | .local _ .vmem, ⟨2, _⟩ => ⟨S16x1024x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_off1 (k0_t1 : Fin k0_t1_loop.trips) : Fin 3 → Nat :=
  let c0_i32 : BitVec 32 := 0#32
  let c1_i32 : BitVec 32 := 1#32
  let arg4 : BitVec 32 := Scf.iv c0_i32 c1_i32 k0_t1
  let v6 : Index := Scalar.indexCast arg4
  let c0_2 : Index := 0#32
  let c0_3 : Index := 0#32
  ![v6.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S16x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S8x256_S8x256_0_0 : ∀ a, (![0, 0] : Fin 2 → Nat) a + S8x256.size a ≤ S8x256.size a
  h_S8x256 : 0 < S8x256.numel
  shapeCasts_S8x256_S1x8x256 : S8x256.ShapeCasts S1x8x256
  shapeCasts_S1x8x256_S1x8x256 : S1x8x256.ShapeCasts S1x8x256
  broadcasts_S1x8x256_S128x8x256 : S1x8x256.Broadcasts S128x8x256
  shapeCasts_S128x8x256_S1024x256 : S128x8x256.ShapeCasts S1024x256
  h_S1x1024x256 : 0 < S1x1024x256.numel
  shapeCasts_S1x1024x256_S1024x256 : S1x1024x256.ShapeCasts S1024x256
  shapeCasts_S1024x256_S1x1024x256 : S1024x256.ShapeCasts S1x1024x256
  hrank0 : 0 < grid0.rank
  k0_t1_ok : k0_t1_loop.OK
  k0_off1_inb : ∀ k0_t1 : Fin k0_t1_loop.trips, ∀ a, (k0_off1 k0_t1) a + S1x1024x256.size a ≤ S16x1024x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S8x256.size a
  hwx0_0 : ∀ i : grid0.Coords, EltTy.bits .f32 = 32 ∨ (Rect.block (s := S8x256) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024x256.size a ≤ S32x4096x256.size a
  hwx0_1 : ∀ i : grid0.Coords, EltTy.bits .f32 = 32 ∨ (Rect.block (s := S32x4096x256) S16x1024x256.size (cc0_transform_1 i) (hinb0_1 i)).WholeWords (EltTy.packing .f32)

variable [Facts₀]

abbrev win0_0 : Pipeline.Window sig grid0 :=
  Pipeline.Window.ofSpec (Memref.whole main_arg1) S8x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S8x256 : Shape := ⟨2, ![8, 256]⟩
abbrev S4096 : Shape := ⟨1, ![4096]⟩
abbrev S_ : Shape := ⟨0, ![]⟩
abbrev S4096x1 : Shape := ⟨2, ![4096, 1]⟩
abbrev S4096x256 : Shape := ⟨2, ![4096, 256]⟩
abbrev S1x4096x256 : Shape := ⟨3, ![1, 4096, 256]⟩

abbrev nBuf : Space → Nat
  | .hbm => 36
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S8x256, .f32⟩
  | .hbm, ⟨2, _⟩ => ⟨S4096, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S_, .i1⟩
  | .hbm, ⟨19, _⟩ => ⟨S4096, .i1⟩
  | .hbm, ⟨20, _⟩ => ⟨S4096, .i1⟩
  | .hbm, ⟨21, _⟩ => ⟨S4096, .i1⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x256, .f32⟩
  | .hbm, ⟨34, _⟩ => ⟨S1x4096x256, .f32⟩
  | .hbm, ⟨35, _⟩ => ⟨S32x4096x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x256_S1x4096x256_1_2 : S4096x256.BroadcastsInDim S1x4096x256 (![1, 2] : Fin 2 → Fin S1x4096x256.rank)
  bcast_S1x4096x256_S32x4096x256_0_1_2 : S1x4096x256.BroadcastsInDim S32x4096x256 (![0, 1, 2] : Fin 3 → Fin S32x4096x256.rank)
  gather_S8x256_S4096x1_S4096x256_1_0_n_n_0_1_1256_wf : GatherDims.WF S8x256 S4096x1 S4096x256 [1] [0] [] [0] [] 1 ![1, 256]

variable [Facts₀]

def gather_S8x256_S4096x1_S4096x256_1_0_n_n_0_1_1256 : GatherDims S8x256 S4096x1 S4096x256 where
  offsetDims := [1]
  collapsedSliceDims := [0]
  operandBatchingDims := []
  startIndicesBatchingDims := []
  startIndexMap := [0]
  indexVectorDim := 1
  sliceSizes := ![1, 256]
  wf := gather_S8x256_S4096x1_S4096x256_1_0_n_n_0_1_1256_wf

class Facts : Prop extends Facts₀ where

variable [Facts]
-- ==== Proof.RelPos.lean ====
/-
  The table of relative-position rows, as one function of the embedding table.

  The embedding table has 8 rows of 256 entries.  The result has one row per (batch, token) pair, 32 batches of
  4096 tokens: the row of token `s` is row `s mod 8` of the table, whatever the batch.  Nothing is computed: every
  entry of the result is a copy of an entry of the table, so the statement is about any element type.
-/
import Idealize.ShloMosaic.Lib.ValueIdx

namespace Cert.RelPos

open Idealize.ShloMosaic Idealize.ShloMosaic.ValueIdx

/-- Entry `(b, s, e)` of the result is entry `(s mod 8, e)` of the table. -/
def table {α : Type} (E : (⟨2, ![8, 256]⟩ : Shape).Idx → α) : (⟨3, ![32, 4096, 256]⟩ : Shape).Idx → α :=
  fun j => E (ix2 (⟨(j 1).val % 8, Nat.mod_lt _ (by norm_num)⟩ : Fin 8) (⟨(j 2).val, (j 2).isLt⟩ : Fin 256))

/-- The same at explicit coordinates. -/
theorem table_apply {α : Type} (E : (⟨2, ![8, 256]⟩ : Shape).Idx → α) (b : Fin 32) (s : Fin 4096) (e : Fin 256) :
    table E (ix3 b s e) = E (ix2 (⟨s.val % 8, Nat.mod_lt _ (by norm_num)⟩ : Fin 8) e) := rfl

end Cert.RelPos
-- ==== Proof.LibFlattenRows.lean ====
/-
  An array of shape [a, b, c] and the same entries as a matrix of a·b rows: entry (i, j, k) of the one is entry
  (i·b + j, k) of the other, in both directions of the reshape.
-/
import Idealize.ShloMosaic.Lib.Pipeline.Value
import Idealize.ShloMosaic.Lib.ValueIdx

namespace Cert.FlattenRows

open Idealize.ShloMosaic Idealize.ShloMosaic.ValueIdx

variable {α : Type}

/-- Flattening the two leading axes: row `i·b + j` of the matrix is row `j` of slab `i`. -/
theorem flatten_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the rows again: row `j` of slab `i` is row `i·b + j` of the matrix. -/
theorem unflatten_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.FlattenRows
-- ==== Proof.KernelRows.lean ====
/-
  One tile of the kernel's output, read at an index.

  The kernel loads the 8 × 256 table, views it as one slab [1, 8, 256], repeats the slab 128 times along a new
  leading axis, and merges the repeat axis into the row axis: a tile of 1024 rows of 256 entries, stored as
  [1, 1024, 256].  Row `r = q·8 + a` of the tile is row `a` of repeat `q`, which is row `a` of the table:
  row `r` of the tile is row `r mod 8` of the table.  Nothing is computed, so this holds for any float model.
-/
import proofs.«141991_j40252433498313_2_alg».proof.Proof.Gen.KernelIdeal.Skeleton
import proofs.«141991_j40252433498313_2_alg».proof.Proof.LibFlattenRows
import Idealize.ShloMosaic.Lib.Pipeline.Value
import Idealize.ShloMosaic.Lib.ValueIdx

noncomputable section

namespace Cert.KernelIdeal.Rows

open Idealize.ShloMosaic Idealize.ShloMosaic.ValueIdx Cert.KernelIdeal Cert.KernelIdeal.Gen

variable {F : FTy → Type} [FloatOps F]

/-- Entry `(0, r, e)` of the stored tile is entry `(r mod 8, e)` of the loaded table. -/
theorem tile_apply (v0 : Vec F S8x256 .f32) (r : Fin 1024) (e : Fin 256) :
    k0_pay1 v0 (ix3 (0 : Fin 1) r e) = v0 (ix2 (⟨r.val % 8, Nat.mod_lt _ (by norm_num)⟩ : Fin 8) e) := by
  have hq : r.val / 8 < 128 := by have := r.isLt; omega
  have ha : r.val % 8 < 8 := Nat.mod_lt _ (by norm_num)
  show shapeCast S1x1024x256 (shapeCast S1024x256 (broadcastTo S128x8x256
      (shapeCast S1x8x256 (shapeCast S1x8x256 v0 shapeCasts_S8x256_S1x8x256) shapeCasts_S1x8x256_S1x8x256)
      broadcasts_S1x8x256_S128x8x256) shapeCasts_S128x8x256_S1024x256) shapeCasts_S1024x256_S1x1024x256
      (ix3 (0 : Fin 1) r e) = _
  -- the tile as 1024 rows
  rw [Cert.FlattenRows.unflatten_apply _ _ (0 : Fin 1) r e r (by simp)]
  -- row r is row r mod 8 of repeat r / 8
  rw [Cert.FlattenRows.flatten_apply _ _ (⟨r.val / 8, hq⟩ : Fin 128) (⟨r.val % 8, ha⟩ : Fin 8) e r
    (by show r.val = r.val / 8 * 8 + r.val % 8; omega)]
  -- every repeat is the one slab
  rw [broadcastTo_apply _ _ _ (ix3 (0 : Fin 1) (⟨r.val % 8, ha⟩ : Fin 8) e) (by
    intro a
    match a with
    | ⟨0, _⟩ => rfl
    | ⟨1, _⟩ => rfl
    | ⟨2, _⟩ => rfl)]
  rw [shapeCast_self]
  -- the slab is the table
  rw [Cert.FlattenRows.unflatten_apply _ _ (0 : Fin 1) (⟨r.val % 8, ha⟩ : Fin 8) e (⟨r.val % 8, ha⟩ : Fin 8) (by simp)]

end Cert.KernelIdeal.Rows

end
-- ==== Proof.KernelTrips.lean ====
/-
  What the kernel body leaves in its output block.

  The body stores the same tile of 1024 rows sixteen times, once per batch row of the block: trip `k` of its loop
  stores the tile at rows `(k, 0..1023)`.  Every stored entry is therefore the same function of the block index,
  `(b, r, e) ↦ table (r mod 8, e)`: the sixteen stores cover the block, and read back they are that function.
-/
import proofs.«141991_j40252433498313_2_alg».proof.Proof.Gen.KernelIdeal.Frame
import proofs.«141991_j40252433498313_2_alg».proof.Proof.KernelRows
import Idealize.ShloMosaic.Lib.Pipeline.Value

set_option maxRecDepth 16384

noncomputable section

namespace Cert.KernelIdeal.Trips

open Idealize.ShloMosaic Idealize.ShloMosaic.ValueIdx Idealize.ShloMosaic.TcCoe Idealize.SL.Sem
open Cert.KernelIdeal Cert.KernelIdeal.Gen

variable {F : FTy → Type} [FloatOps F]

/-- The block every grid point fills: entry `(b, r, e)` is entry `(r mod 8, e)` of the table. -/
def blockOf (x0 : Vec F S8x256 .f32) : Vec F S16x1024x256 .f32 :=
  fun y => x0 (ix2 (⟨(y 1).val % 8, Nat.mod_lt _ (by norm_num)⟩ : Fin 8) (⟨(y 2).val, (y 2).isLt⟩ : Fin 256))

/-- The tile, placed at batch row `k` of the block, agrees with `blockOf` there: the placement moves only the
    batch coordinate, which `blockOf` does not read. -/
theorem tile_at (v0 : Vec F S8x256 .f32) (k : Fin k0_t1_loop.trips)
    (inb : ∀ a, k0_off1 k a + S1x1024x256.size a ≤ S16x1024x256.size a) (r : Fin 1024) (e : Fin 256) :
    k0_pay1 v0 (ix3 (0 : Fin 1) r e)
      = blockOf v0 ((Rect.unit (s := S16x1024x256) (k0_off1 k) S1x1024x256.size inb).emb (ix3 (0 : Fin 1) r e)) := by
  rw [Cert.KernelIdeal.Rows.tile_apply]
  unfold blockOf
  refine congrArg v0 ?_
  funext a
  match a with
  | ⟨0, _⟩ =>
    refine Fin.ext ?_
    show r.val % 8 = (0 + 1 * r.val) % 8
    omega
  | ⟨1, _⟩ =>
    refine Fin.ext ?_
    show e.val = 0 + 1 * e.val
    omega

/-- The same at any index of the stored tile. -/
theorem tile_agrees (v0 : Vec F S8x256 .f32) (k : Fin k0_t1_loop.trips)
    (inb : ∀ a, k0_off1 k a + S1x1024x256.size a ≤ S16x1024x256.size a)
    (x : (Rect.unit (s := S16x1024x256) (k0_off1 k) S1x1024x256.size inb).shape.Idx) :
    k0_pay1 v0 x = blockOf v0 ((Rect.unit (s := S16x1024x256) (k0_off1 k) S1x1024x256.size inb).emb x) := by
  have hx : x = ix3 (0 : Fin 1) (⟨(x 1).val, (x 1).isLt⟩ : Fin 1024) (⟨(x 2).val, (x 2).isLt⟩ : Fin 256) := by
    funext a
    match a with
    | ⟨0, _⟩ =>
      refine Fin.ext ?_
      have h0 : (x 0).val < 1 := (x 0).isLt
      show (x 0).val = 0
      omega
    | ⟨1, _⟩ => rfl
    | ⟨2, _⟩ => rfl
  rw [hx]
  exact tile_at v0 k inb _ _

/-- One trip of the loop stores one piece: the tile, at the trip's batch row. -/
theorem trip_piece (𝒱 : Variants) (c : Dev nD) (bd : Option 𝒱.V) (i : grid0.Coords)
    (arg2 : Memref sig .tc .vmem S8x256 .f32) (harg2 : arg2.IsWhole)
    (arg3 : Memref sig .tc .vmem S16x1024x256 .f32) (harg3 : arg3.IsWhole)
    (v0 : Vec F S8x256 .f32) (k : Fin k0_t1_loop.trips) :
    tripL_k0_t1 (F := F) 𝒱 c bd i arg2 harg2 arg3 harg3 v0 k
      = [⟨Rect.unit (s := S16x1024x256) (k0_off1 k) S1x1024x256.size (k0_off1_inb k), k0_pay1 v0⟩] := by
  unfold tripL_k0_t1 trip_k0_t1
  rfl

/-- Every piece stored by the trips before `n` agrees with `blockOf` where it lies. -/
theorem pieces_agree (𝒱 : Variants) (c : Dev nD) (bd : Option 𝒱.V) (i : grid0.Coords)
    (arg2 : Memref sig .tc .vmem S8x256 .f32) (harg2 : arg2.IsWhole)
    (arg3 : Memref sig .tc .vmem S16x1024x256 .f32) (harg3 : arg3.IsWhole)
    (v0 : Vec F S8x256 .f32) :
    ∀ (n : ℕ), ∀ p ∈ pb_k0_t1 (F := F) 𝒱 c bd i arg2 harg2 arg3 harg3 v0 n,
      ∀ x : p.1.shape.Idx, p.2 x = blockOf v0 (p.1.emb x)
  | 0 => by
    intro p hp
    rw [pb_k0_t1.eq_1] at hp
    exact absurd hp List.not_mem_nil
  | n + 1 => by
    intro p hp
    rw [pb_k0_t1.eq_2] at hp
    unfold pb_k0_t1Step at hp
    by_cases h : n < k0_t1_loop.trips
    · rw [dif_pos h, trip_piece] at hp
      rcases List.mem_append.mp hp with h1 | h1
      · obtain rfl := List.mem_singleton.mp h1
        intro x
        exact tile_agrees v0 ⟨n, h⟩ (k0_off1_inb ⟨n, h⟩) x
      · exact pieces_agree 𝒱 c bd i arg2 harg2 arg3 harg3 v0 n p h1
    · rw [dif_neg h] at hp
      exact pieces_agree 𝒱 c bd i arg2 harg2 arg3 harg3 v0 n p hp

/-- The table as the body's first load reads it from its whole staging buffer is the buffer's contents. -/
theorem loaded_eq (arg2 : Memref sig .tc .vmem S8x256 .f32) (harg2 : arg2.IsWhole) (x0 : Vec F S8x256 .f32)
    (inb : ∀ a, (![0, 0] : Fin 2 → ℕ) a + S8x256.size a ≤ S8x256.size a) :
    View.readAt (Elt F) arg2.view (Rect.unit (s := S8x256) ![0, 0] S8x256.size inb).toLoadRect (harg2.unread x0) = x0 := by
  have hz : (![0, 0] : Fin 2 → ℕ) = fun _ => 0 := by
    funext a
    match a with
    | ⟨0, _⟩ => rfl
    | ⟨1, _⟩ => rfl
  rw [View.readAt_eq_ld, harg2.read_unread, View.ld_unit_zero (S := S8x256) hz]

/-- THE BLOCK: what the body leaves in the output's staging buffer is `blockOf` of the table block it was given. -/
theorem out_eq (c : Dev nD) (i : grid0.Coords) (arg2 : Memref sig .tc .vmem S8x256 .f32) (harg2 : arg2.IsWhole)
    (arg3 : Memref sig .tc .vmem S16x1024x256 .f32) (harg3 : arg3.IsWhole) (x0 : Vec F S8x256 .f32) :
    out0_A_1 c i arg2 harg2 arg3 harg3 x0 = blockOf x0 := by
  unfold out0_A_1
  rw [View.read_writes_eq_canon _ _ _ (cover0_A_1 c i arg2 harg2 arg3 harg3 x0)]
  funext y
  refine View.canon_apply_of_pieces (blockOf x0) _ ?_ y (cover0_A_1 c i arg2 harg2 arg3 harg3 x0 y)
  have hL : ∃ n, (kernelRun0_A c i arg2 harg2 arg3 harg3 x0).1
      = pb_k0_t1 (F := F) Variants.none c none i arg2 harg2 arg3 harg3 x0 n := by
    unfold kernelRun0_A
    dsimp only
    rw [loaded_eq]
    exact ⟨_, rfl⟩
  obtain ⟨n, hn⟩ := hL
  rw [hn]
  exact pieces_agree Variants.none c none i arg2 harg2 arg3 harg3 x0 n

end Cert.KernelIdeal.Trips

end
-- ==== Proof.KernelValue.lean ====
/-
  The kernel's result array as one function of the table.

  The grid has 2 × 4 points; point `(p, q)` writes back the block of batches `16p .. 16p+15` and tokens
  `1024q .. 1024q+1023`.  Every block holds `(b, r, e) ↦ table (r mod 8, e)`, and a block's first token `1024q` is a
  multiple of 8, so token `s = 1024q + r` has `s mod 8 = r mod 8`: each block is the restriction of the one
  function `RelPos.table`.  The eight blocks tile the array, so the array ends holding `RelPos.table` of the table.
-/
import proofs.«141991_j40252433498313_2_alg».proof.Proof.Gen.KernelIdeal.Value
import proofs.«141991_j40252433498313_2_alg».proof.Proof.RelPos
import proofs.«141991_j40252433498313_2_alg».proof.Proof.KernelTrips

set_option maxRecDepth 16384

noncomputable section

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The block indices over the grid: the table's window never moves, the output's block is `(p, q, 0)`. -/
theorem block_indices : ∀ t : Fin cfg0.N, win0_0.index t (0 : Fin 2) = 0 ∧ win0_0.index t (1 : Fin 2) = 0
    ∧ win0_1.index t (2 : Fin 3) = 0 ∧ win0_1.index t (0 : Fin 3) ≤ 1 ∧ win0_1.index t (1 : Fin 3) ≤ 3 :=
  (by decide +kernel : ∀ t : Fin grid0.N, _)

/-- Every block of the array is some point's. -/
theorem block_onto : ∀ (q0 : Fin 2) (q1 : Fin 4), ∃ t : Fin cfg0.N, win0_1.index t = ![q0.val, q1.val, 0] :=
  (by decide +kernel : ∀ (q0 : Fin 2) (q1 : Fin 4), ∃ t : Fin grid0.N, win0_1.index t = ![q0.val, q1.val, 0])

/-- What a point writes back is its block of `RelPos.table` of the table as the region finds it. -/
theorem flushed_eq (c : Dev nD) (t : Fin cfg0.N) :
    (dats m 0 c).flushed 1 t = ((cfg0.win 1).blk t).view.read (Elt F) (Cert.RelPos.table (V m c main_arg1)) := by
  rw [Cert.KernelIdeal.Value.flushed1_A, Cert.KernelIdeal.Trips.out_eq]
  obtain ⟨e0, e1, e2, -, -⟩ := block_indices t
  funext j
  show V m c main_arg1 (((cfg0.win 0).blk t).view.emb
      (ix2 (⟨(j 1).val % 8, Nat.mod_lt _ (by norm_num)⟩ : Fin 8) (⟨(j 2).val, (j 2).isLt⟩ : Fin 256)))
    = V m c main_arg1 (ix2 (⟨((((cfg0.win 1).blk t).view.emb j) 1).val % 8, Nat.mod_lt _ (by norm_num)⟩ : Fin 8)
        (⟨((((cfg0.win 1).blk t).view.emb j) 2).val, ((((cfg0.win 1).blk t).view.emb j) 2).isLt⟩ : Fin 256))
  refine congrArg (V m c main_arg1) ?_
  funext a
  apply Fin.ext
  match a with
  | ⟨0, _⟩ =>
    show win0_0.index t (0 : Fin 2) * 8 + 1 * ((j 1).val % 8) = (win0_1.index t (1 : Fin 3) * 1024 + 1 * (j 1).val) % 8
    omega
  | ⟨1, _⟩ =>
    show win0_0.index t (1 : Fin 2) * 256 + 1 * (j 2).val = win0_1.index t (2 : Fin 3) * 256 + 1 * (j 2).val
    omega

/-- An index of the array is in a point's block iff each coordinate is in the block's range on its axis. -/
theorem mem_block (t : Fin cfg0.N) (i : S32x4096x256.Idx) :
    i ∈ ((cfg0.win 1).blk t).view.set ↔ ∀ a : Fin 3, win0_1.index t a * S16x1024x256.size a ≤ (i a).val
      ∧ (i a).val < win0_1.index t a * S16x1024x256.size a + S16x1024x256.size a := by
  show i ∈ ((View.whole main_v0).slice (win0_1.rect t)).set ↔ _
  rw [View.set_slice_whole, Rect.mem_set_unit]
  exact Iff.rfl

/-- The blocks tile the array: batch `b` and token `s` lie in the block of point `(b / 16, s / 1024)`. -/
theorem cover (i : S32x4096x256.Idx) :
    ∃ t : Fin cfg0.N, (cfg0.win 1).flush t = true ∧ i ∈ ((cfg0.win 1).blk t).view.set := by
  have hi0 : (i 0).val < 32 := (i 0).isLt
  have hi1 : (i 1).val < 4096 := (i 1).isLt
  have hi2 : (i 2).val < 256 := (i 2).isLt
  obtain ⟨t, ht⟩ := block_onto ⟨(i 0).val / 16, by omega⟩ ⟨(i 1).val / 1024, by omega⟩
  have q0 : win0_1.index t (0 : Fin 3) = (i 0).val / 16 := congrFun ht 0
  have q1 : win0_1.index t (1 : Fin 3) = (i 1).val / 1024 := congrFun ht 1
  have q2 : win0_1.index t (2 : Fin 3) = 0 := congrFun ht 2
  refine ⟨t, flush0_1 t, ?_⟩
  rw [mem_block]
  intro a
  match a with
  | ⟨0, _⟩ =>
    show win0_1.index t (0 : Fin 3) * 16 ≤ (i 0).val ∧ (i 0).val < win0_1.index t (0 : Fin 3) * 16 + 16
    omega
  | ⟨1, _⟩ =>
    show win0_1.index t (1 : Fin 3) * 1024 ≤ (i 1).val ∧ (i 1).val < win0_1.index t (1 : Fin 3) * 1024 + 1024
    omega
  | ⟨2, _⟩ =>
    show win0_1.index t (2 : Fin 3) * 256 ≤ (i 2).val ∧ (i 2).val < win0_1.index t (2 : Fin 3) * 256 + 256
    omega

/-- The array after the run is `RelPos.table` of the table. -/
theorem final (c : Dev nD) :
    (dats m 0 c).arrAt 1 cfg0.N = Cert.RelPos.table (m ((c : Thread nD τ).loc main_arg1)) :=
  (dats m 0 c).arrAt_eq_of_cover 1 (Cert.RelPos.table (V m c main_arg1)) (fun t _ => flushed_eq m c t) cover

/-- The kernel's run: the result array ends at `RelPos.table` of the table argument, the arguments unchanged. -/
theorem run : θ_run defs (onTc (τ := τ) (main (F := F))) ⟨m, fun _ => 0, ρ⟩ fun r => ∀ c : Dev nD,
      r.2.mem ((c : Thread nD τ).loc main_v0) = Cert.RelPos.table (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Blocks

end
-- ==== Proof.RefRun.lean ====
/-
  The reference program's run, read back.

  The reference is a straight line of host operations once its two outlined functions are written at their call
  sites: the remainder function (which itself calls the three-way choice function) between the second and third
  operations of the main function.  Listed in order they are 34 operations, each writing one buffer of its own.  Every
  weakly fair execution of the line terminates, and the result buffer then holds one composed term of the table
  argument: the integer chain (positions `0 … 4095`, their remainder by 8 with the sign corrections the source
  language prescribes, the wrap of a negative index) is a closed table of indices `idx`; the rows of the argument at
  those indices are gathered, and the gathered rows repeated along a new leading axis of 32.
-/
import proofs.«141991_j40252433498313_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- A rank-0 integer constant repeated at each of the 4096 positions. -/
abbrev rep {w : Nat} (x : IVec S_ w) : IVec S4096 w := broadcastInDim S4096 ![] bcast_S_S4096 x

/-- The divisor the remainder is taken by: 8, replaced by 1 were it 0. -/
def divisor : IVec S_ 32 :=
  select (cmpi .eq (id (constantI S_ 32 8#32)) (constantI S_ 32 0#32)) (constantI S_ 32 1#32) (id (constantI S_ 32 8#32))

/-- The truncated remainder of each position by the divisor: it has the sign of the position. -/
def rem0 : IVec S4096 32 := Host.remsi (iotaInDim S4096 32 0) (rep divisor)

/-- The floored remainder: where the truncated one is not zero and its sign differs from the divisor's, the divisor
    is added. -/
def rem : IVec S4096 32 :=
  select
    (andi (cmpi .ne (cmpi .slt rem0 (rep (constantI S_ 32 0#32))) (rep (cmpi .slt divisor (constantI S_ 32 0#32))))
      (cmpi .ne rem0 (rep (constantI S_ 32 0#32))))
    (addi rem0 (rep divisor)) rem0

/-- The row index of each position: the remainder, a negative one wrapped by adding the 8 rows. -/
def idx : IVec S4096 32 :=
  select (cmpi .slt rem (rep (constantI S_ 32 0#32))) (addi rem (rep (constantI S_ 32 8#32))) rem

/-- The result as a term of the table argument: the rows at `idx` gathered, then repeated along a new leading axis. -/
def out (E : (⟨S8x256, .f32⟩ : BufTy).Contents (Elt F)) : (⟨S32x4096x256, .f32⟩ : BufTy).Contents (Elt F) :=
  broadcastInDim S32x4096x256 ![0, 1, 2] bcast_S1x4096x256_S32x4096x256_0_1_2
    (broadcastInDim S1x4096x256 ![1, 2] bcast_S4096x256_S1x4096x256_1_2
      (Host.gather gather_S8x256_S4096x1_S4096x256_1_0_n_n_0_1_1256 E
        (broadcastInDim S4096x1 ![0] bcast_S4096_S4096x1_0 idx)))

/-! ## The operations -/

/-- The main function's 34 operations in order, the two outlined functions written at their call sites: the
    remainder function's twenty after the first two (its fifth the choice function's one), then the main function's
    own eleven. -/
abbrev ops : List (HloOp τ sig (Elt F)) :=
  [ nullary main_v0 (iotaInDim S4096 32 0),
    nullary main_c (constantI S_ 32 8#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4096 ![] bcast_S_S4096),
    TRef.binary (.of main_v0) main_call0.v3 main_call0.v4 Host.remsi,
    TRef.nullary main_call0.c_1 (constantI S_ 32 0#32),
    TRef.unary main_call0.c_1 main_call0.v5 (broadcastInDim S4096 ![] bcast_S_S4096),
    TRef.binary main_call0.v4 main_call0.v5 main_call0.v6 (cmpi .ne),
    TRef.nullary main_call0.c_2 (constantI S_ 32 0#32),
    TRef.unary main_call0.c_2 main_call0.v7 (broadcastInDim S4096 ![] bcast_S_S4096),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096 ![] bcast_S_S4096),
    TRef.binary main_call0.v8 main_call0.v10 main_call0.v11 (cmpi .ne),
    TRef.binary main_call0.v11 main_call0.v6 main_call0.v12 andi,
    TRef.unary main_call0.call0.v0 main_call0.v13 (broadcastInDim S4096 ![] bcast_S_S4096),
    TRef.binary main_call0.v4 main_call0.v13 main_call0.v14 addi,
    TRef.ternary main_call0.v12 main_call0.v14 main_call0.v4 main_call0.v15 select,
    nullary main_c_0 (constantI S_ 32 0#32),
    unary main_c_0 main_v2 (broadcastInDim S4096 ![] bcast_S_S4096 : (⟨S_, .i32⟩ : BufTy).Contents (Elt F) → (⟨S4096, .i32⟩ : BufTy).Contents (Elt F)),
    binary main_v1 main_v2 main_v3 (cmpi .slt : (⟨S4096, .i32⟩ : BufTy).Contents (Elt F) → (⟨S4096, .i32⟩ : BufTy).Contents (Elt F) → (⟨S4096, .i1⟩ : BufTy).Contents (Elt F)),
    nullary main_c_1 (constantI S_ 32 8#32),
    unary main_c_1 main_v4 (broadcastInDim S4096 ![] bcast_S_S4096 : (⟨S_, .i32⟩ : BufTy).Contents (Elt F) → (⟨S4096, .i32⟩ : BufTy).Contents (Elt F)),
    binary main_v1 main_v4 main_v5 (addi : (⟨S4096, .i32⟩ : BufTy).Contents (Elt F) → (⟨S4096, .i32⟩ : BufTy).Contents (Elt F) → (⟨S4096, .i32⟩ : BufTy).Contents (Elt F)),
    ternary main_v3 main_v5 main_v1 main_v6 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v6 main_v7 (broadcastInDim S4096x1 ![0] bcast_S4096_S4096x1_0 : (⟨S4096, .i32⟩ : BufTy).Contents (Elt F) → (⟨S4096x1, .i32⟩ : BufTy).Contents (Elt F)),
    binary main_arg1 main_v7 main_v8 ((fun x i => Host.gather gather_S8x256_S4096x1_S4096x256_1_0_n_n_0_1_1256 x i) : (⟨S8x256, .f32⟩ : BufTy).Contents (Elt F) → (⟨S4096x1, .i32⟩ : BufTy).Contents (Elt F) → (⟨S4096x256, .f32⟩ : BufTy).Contents (Elt F)),
    unary main_v8 main_v9 (broadcastInDim S1x4096x256 ![1, 2] bcast_S4096x256_S1x4096x256_1_2 : (⟨S4096x256, .f32⟩ : BufTy).Contents (Elt F) → (⟨S1x4096x256, .f32⟩ : BufTy).Contents (Elt F)),
    unary main_v9 main_v10 (broadcastInDim S32x4096x256 ![0, 1, 2] bcast_S1x4096x256_S32x4096x256_0_1_2 : (⟨S1x4096x256, .f32⟩ : BufTy).Contents (Elt F) → (⟨S32x4096x256, .f32⟩ : BufTy).Contents (Elt F)) ]

set_option maxRecDepth 1024 in
/-- The main function is that straight line: the two functions' definitions unfolded at their calls, both sides are
    one chain of steps once sequencing is reassociated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub ..⟩

/-- What the result buffer holds after the line, from any contents: the composed term of the table argument. -/
theorem out_eq (V : Valuation τ sig (Elt F)) :
    after ops V (main_v10 : DevRef τ sig) = out (V (main_arg1 : DevRef τ sig)) := by
  unfold out idx rem rem0 divisor
  after_results_simp
  rfl

/-- No operation of the line writes the first argument. -/
theorem arg0_eq (V : Valuation τ sig (Elt F)) :
    after ops V (main_arg0 : DevRef τ sig) = V (main_arg0 : DevRef τ sig) := by
  simp only [after_cons, after_nil]
  rfl

/-- No operation of the line writes the table argument. -/
theorem arg1_eq (V : Valuation τ sig (Elt F)) :
    after ops V (main_arg1 : DevRef τ sig) = V (main_arg1 : DevRef τ sig) := by
  simp only [after_cons, after_nil]
  rfl

/-- On every device, for any float values, from any memory with zero counters: every weakly fair execution of the
    main function terminates with the result at the composed term of the table argument and the arguments unchanged. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ fun r => ∀ c : Dev nD,
      r.2.mem ((c.tc : Thread nD τ).loc main_v10) = out (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v10).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.LibGatherRows.lean ====
/-
  `stablehlo.gather` by a COLUMN of start indices, read at an index.  No program is imported.

  What `x[idx]` lowers to when the integer array `idx` of `M` indices is passed as an `[M, 1]` array (index vector
  axis 1, one component per start index):

  * `gather_flat_apply`: of a flat operand `x : [N]`, result `[M]` — element `p` is `x` at the start index `idx[p, 0]`
    read as a signed integer and clamped into `[0, N − 1]`;
  * `gather_rows_apply`: of a table of rows `x : [A, C]`, result `[M, C]` (whole rows: slice sizes `[1, C]`, axis 0
    collapsed, axis 1 the result's offset axis) — element `(p, k)` is `x` at row `idx[p, 0]`, read signed and clamped
    into `[0, A − 1]`, and column `k`.

  The dimension numbers are literal records with an arbitrary proof of their conditions, so a program's own record
  with the same fields is one of these by `rfl`.
-/
import Idealize.ShloMosaic.Lib.ValueIdx

noncomputable section

namespace Cert.Moe

open Idealize.ShloMosaic Idealize.ShloMosaic.ValueIdx

section
variable {α : Type}

/-- Dimension numbers of a flat gather by a column of indices: operand `[N]`, start indices `[M, 1]`, result `[M]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `p`: the operand at the start index `idx[p, 0]`, read signed and clamped into
    `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (p : Fin M) :
    Host.gather (flatDims N M wf) x idx (ix1 p) = x (ix1 ⟨min (idx (ix2 p 0)).toInt.toNat (N - 1), by omega⟩) := by
  unfold Host.gather
  refine congrArg x ?_
  funext a
  obtain rfl : a = 0 := Subsingleton.elim _ _
  refine Fin.ext ?_
  show (flatDims N M wf).start (ix1 p) idx 0 + (flatDims N M wf).batchCoord (ix1 p) 0
    + (flatDims N M wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 p) ⟨List.idxOf (0 : Fin 1) (flatDims N M wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

/-- Dimension numbers of a gather of whole rows by a column of indices: operand `[A, C]`, start indices `[M, 1]`,
    result `[M, C]`. -/
abbrev rowDims (A C M : Nat) (wf : GatherDims.WF ⟨2, ![A, C]⟩ ⟨2, ![M, 1]⟩ ⟨2, ![M, C]⟩ [1] [0] [] [0] [] 1 ![1, C]) :
    GatherDims ⟨2, ![A, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

set_option maxHeartbeats 50000 in
/-- THE ROW GATHER READ AT `(p, k)`: the operand at the row `idx[p, 0]`, read signed and clamped into `[0, A − 1]`,
    and column `k`. -/
theorem gather_rows_apply {A C M w : Nat} (hA : 0 < A)
    (wf : GatherDims.WF ⟨2, ![A, C]⟩ ⟨2, ![M, 1]⟩ ⟨2, ![M, C]⟩ [1] [0] [] [0] [] 1 ![1, C])
    (x : (⟨2, ![A, C]⟩ : Shape).Idx → α) (idx : IVec ⟨2, ![M, 1]⟩ w) (p : Fin M) (k : Fin C) :
    Host.gather (rowDims A C M wf) x idx (ix2 p k)
      = x (ix2 ⟨min (idx (ix2 p 0)).toInt.toNat (A - 1), by omega⟩ k) := by
  unfold Host.gather
  refine congrArg x ?_
  funext a
  refine Fin.ext ?_
  match a with
  | ⟨0, _⟩ =>
    show (rowDims A C M wf).start (ix2 p k) idx 0 + (rowDims A C M wf).batchCoord (ix2 p k) 0
      + (rowDims A C M wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims A C M wf).startIndexMap from List.mem_singleton.mpr rfl)]
    have hsi : (rowDims A C M wf).siIdx (ix2 p k) ⟨List.idxOf (0 : Fin 2) (rowDims A C M wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims A C M wf).start (ix2 p k) idx 1 + (rowDims A C M wf).batchCoord (ix2 p k) 1
      + (rowDims A C M wf).offCoord (ix2 p k) 1 = k.val
    have hs : (rowDims A C M wf).start (ix2 p k) idx 1 = 0 := by
      unfold GatherDims.start
      rw [dif_neg (show (1 : Fin 2) ∉ (rowDims A C M wf).startIndexMap from
        (by decide : (1 : Fin 2) ∉ [(0 : Fin 2)]))]
    have ho : (rowDims A C M wf).offCoord (ix2 p k) 1 = k.val := by
      unfold GatherDims.offCoord
      rw [dif_pos (show (1 : Fin 2) ∈ (rowDims A C M wf).sKept from
        (GatherDims.mem_sKept _ _).mpr ⟨(by decide : (1 : Fin 2) ∉ [(0 : Fin 2)]), List.not_mem_nil⟩)]
      rfl
    rw [hs, ho, GatherDims.batchCoord_eq_zero _ _ _ List.not_mem_nil]
    omega

end

end Cert.Moe

end
-- ==== Proof.LibIndexWords.lean ====
/-
  Small facts about 32-bit index words, for a natural number `v` below `2^31` written as the word `BitVec.ofNat 32 v`.
  No program is imported.

  * `wrap_word`: the "wrap a negative index" select (`if x < 0 then x + n else x`, signed) leaves such a word alone.
  * `clamp_word`: reading such a word signed and clamping it into `[0, N − 1]` gives `v` back when `v < N ≤ 2^31`.
  * `floorDiv2_word`: the chain jax prints for the floor division `x // 2` of signed integers — the quotient rounded
    toward zero, minus one where the signs of dividend and divisor differ and the remainder is not zero — is, on such
    a word, the word of `v / 2`.  `floorDiv2_apply` is the same chain of vector operations read at one index of any
    shape (the divisor and the constants `0`, `1` broadcast from rank-0 tables), and `tokTable_apply` the closed
    term over the table `0, 1, …, 32767`: its entry `i` is the word of `i / 2`.
  * `iotaInDim_ix1`: the rank-1 iota table at coordinate `i` is the word of `i`.
-/
import Idealize.ShloMosaic.PureOps
import Idealize.ShloMosaic.Lib.ValueIdx

noncomputable section

namespace Cert.Moe

open Idealize.ShloMosaic Idealize.ShloMosaic.ValueIdx

/-! ## The word of a natural below `2^31` -/

/-- Its unsigned value is the natural. -/
theorem idxWord_toNat (v : Nat) (hv : v < 2 ^ 31) : (BitVec.ofNat 32 v).toNat = v := by
  rw [BitVec.toNat_ofNat]; exact Nat.mod_eq_of_lt (by omega)

/-- Its sign bit is clear. -/
theorem idxWord_msb (v : Nat) (hv : v < 2 ^ 31) : (BitVec.ofNat 32 v).msb = false :=
  BitVec.msb_eq_false_iff_two_mul_lt.mpr (by rw [idxWord_toNat v hv]; omega)

/-- Its signed value is the natural. -/
theorem idxWord_toInt (v : Nat) (hv : v < 2 ^ 31) : (BitVec.ofNat 32 v).toInt = (v : Int) := by
  rw [BitVec.toInt_eq_toNat_of_lt (by rw [idxWord_toNat v hv]; omega), idxWord_toNat v hv]

/-- It is the zero word only for `v = 0`. -/
theorem idxWord_ne_zero (v : Nat) (hv : v < 2 ^ 31) (h0 : v ≠ 0) : BitVec.ofNat 32 v ≠ 0 := by
  intro h
  have := congrArg BitVec.toNat h
  rw [idxWord_toNat v hv] at this
  exact h0 this

/-! ## Wrapping and clamping -/

/-- The wrap of a possibly negative index, `if x < 0 then x + n else x` (signed), leaves a non-negative word alone. -/
theorem wrap_word (n : BitVec 32) (v : Nat) (hv : v < 2 ^ 31) :
    Scalar.select (IntOp.cmpi .slt (BitVec.ofNat 32 v) 0#32) (IntOp.addi (BitVec.ofNat 32 v) n) (BitVec.ofNat 32 v)
      = BitVec.ofNat 32 v := by
  have h : IntOp.cmpi .slt (BitVec.ofNat 32 v) 0#32 = 0#1 := by
    show BitVec.ofBool ((BitVec.ofNat 32 v).slt 0#32) = 0#1
    have hlt : ¬ ((v : Int) < 0) := by omega
    rw [BitVec.slt_eq_decide, idxWord_toInt v hv, BitVec.toInt_zero, decide_eq_false hlt]
    rfl
  rw [h, select_zero]

/-- A word below `N ≤ 2^31`, read signed and clamped into `[0, N − 1]`, is its natural. -/
theorem clamp_word (v N : Nat) (hv : v < N) (hN : N ≤ 2 ^ 31) : min (BitVec.ofNat 32 v).toInt.toNat (N - 1) = v := by
  rw [idxWord_toInt v (by omega), Int.toNat_natCast]
  omega

/-! ## Floor division by two -/

/-- The sign of a word as a word (`-1`, `0` or `1`): what `signi` computes at each index. -/
def signWord {w : Nat} (x : BitVec w) : BitVec w := if x = 0 then 0 else if x.msb then -1 else 1

/-- `signi` at an index is the sign of the element. -/
theorem signi_apply {s : Shape} {w : Nat} (x : IVec s w) (i : s.Idx) : signi x i = signWord (x i) := rfl

/-- The sign of the word of a positive natural below `2^31` is `1`. -/
theorem signWord_pos (v : Nat) (hv : v < 2 ^ 31) (h0 : v ≠ 0) : signWord (BitVec.ofNat 32 v) = 1 := by
  unfold signWord
  rw [if_neg (idxWord_ne_zero v hv h0), idxWord_msb v hv]
  rfl

/-- Dividing by the word `2` is not a corner of signed division. -/
theorem not_sdivCorner_two (x : BitVec 32) : ¬ IntOp.SDivCorner x 2#32 := by
  unfold IntOp.SDivCorner
  rintro (h | ⟨_, h⟩)
  · exact idxWord_ne_zero 2 (by norm_num) (by norm_num) h
  · have := congrArg BitVec.toNat h
    simp at this

/-- The signed quotient by `2` of the word of `v` is the word of `v / 2`. -/
theorem divsi_two (u : ArithUnit) (v : Nat) (hv : v < 2 ^ 31) :
    IntOp.divsi u (BitVec.ofNat 32 v) 2#32 = BitVec.ofNat 32 (v / 2) := by
  unfold IntOp.divsi
  rw [if_neg (not_sdivCorner_two _), BitVec.sdiv_eq, idxWord_msb v hv, idxWord_msb 2 (by norm_num)]
  show (BitVec.ofNat 32 v) / 2#32 = _
  apply BitVec.eq_of_toNat_eq
  rw [BitVec.toNat_udiv, idxWord_toNat v hv, idxWord_toNat 2 (by norm_num), idxWord_toNat (v / 2) (by omega)]

/-- The signed remainder by `2` of the zero word is the zero word. -/
theorem remsi_zero_two (u : ArithUnit) : IntOp.remsi u (0#32) 2#32 = 0#32 := by
  unfold IntOp.remsi
  rw [if_neg (not_sdivCorner_two _), BitVec.zero_srem]

/-- jax's floor division by two on the word of a natural `v < 2^31`: the quotient rounded toward zero, less one
    where the signs of `x` and `2` differ and the remainder is not zero, is the word of `v / 2`.  (For `v > 0` the
    signs agree; for `v = 0` the remainder is zero: the correction never applies.) -/
theorem floorDiv2_word (u : ArithUnit) (v : Nat) (hv : v < 2 ^ 31) :
    Scalar.select
        (IntOp.andi (IntOp.cmpi .ne (signWord (BitVec.ofNat 32 v)) (signWord 2#32))
          (IntOp.cmpi .ne (IntOp.remsi u (BitVec.ofNat 32 v) 2#32) 0#32))
        (IntOp.subi (IntOp.divsi u (BitVec.ofNat 32 v) 2#32) 1#32)
        (IntOp.divsi u (BitVec.ofNat 32 v) 2#32)
      = BitVec.ofNat 32 (v / 2) := by
  have hc : IntOp.andi (IntOp.cmpi .ne (signWord (BitVec.ofNat 32 v)) (signWord 2#32))
      (IntOp.cmpi .ne (IntOp.remsi u (BitVec.ofNat 32 v) 2#32) 0#32) = 0#1 := by
    by_cases h0 : v = 0
    · subst h0
      have : IntOp.cmpi .ne (IntOp.remsi u (BitVec.ofNat 32 0) 2#32) 0#32 = 0#1 := by
        rw [show BitVec.ofNat 32 0 = 0#32 from rfl, remsi_zero_two]
        rfl
      rw [this]
      exact BitVec.and_zero
    · have : IntOp.cmpi .ne (signWord (BitVec.ofNat 32 v)) (signWord 2#32) = 0#1 := by
        rw [signWord_pos v hv h0, signWord_pos 2 (by norm_num) (by norm_num)]
        rfl
      rw [this]
      exact BitVec.zero_and
  rw [hc, select_zero, divsi_two u v hv]

/-! ## The same chain of vector operations, read at an index -/

/-- The rank-1 iota table at coordinate `i` is the word of `i`. -/
theorem iotaInDim_ix1 {n : Nat} (w : Nat) (i : Fin n) : iotaInDim ⟨1, ![n]⟩ w 0 (ix1 i) = BitVec.ofNat w i.val := rfl

/-- A rank-0 constant table broadcast to any shape reads the constant everywhere. -/
theorem broadcastInDim_constantI {t : Shape} (dims : Fin (⟨0, ![]⟩ : Shape).rank → Fin t.rank)
    (hb : (⟨0, ![]⟩ : Shape).BroadcastsInDim t dims) (w : Nat) (b : BitVec w) (j : t.Idx) :
    broadcastInDim t dims hb (constantI ⟨0, ![]⟩ w b) j = b := rfl

/-- The floor-division-by-two chain over any table `x`, the divisor `2` and the constants `0`, `1` being rank-0
    constant tables broadcast to the shape, read at an index where `x` holds the word of a natural `v < 2^31`. -/
theorem floorDiv2_apply {t : Shape} (dims : Fin (⟨0, ![]⟩ : Shape).rank → Fin t.rank)
    (hb : (⟨0, ![]⟩ : Shape).BroadcastsInDim t dims) (x : IVec t 32) (j : t.Idx) (v : Nat) (hv : v < 2 ^ 31)
    (hx : x j = BitVec.ofNat 32 v) :
    select
        (andi (cmpi .ne (signi x) (broadcastInDim t dims hb (signi (constantI ⟨0, ![]⟩ 32 2#32))))
          (cmpi .ne (Host.remsi x (broadcastInDim t dims hb (constantI ⟨0, ![]⟩ 32 2#32)))
            (broadcastInDim t dims hb (constantI ⟨0, ![]⟩ 32 0#32))))
        (subi (Host.divsi x (broadcastInDim t dims hb (constantI ⟨0, ![]⟩ 32 2#32)))
          (broadcastInDim t dims hb (constantI ⟨0, ![]⟩ 32 1#32)))
        (Host.divsi x (broadcastInDim t dims hb (constantI ⟨0, ![]⟩ 32 2#32))) j
      = BitVec.ofNat 32 (v / 2) := by
  show Scalar.select
        (IntOp.andi (IntOp.cmpi .ne (signWord (x j)) (signWord 2#32))
          (IntOp.cmpi .ne (IntOp.remsi .host (x j) 2#32) 0#32))
        (IntOp.subi (IntOp.divsi .host (x j) 2#32) 1#32)
        (IntOp.divsi .host (x j) 2#32) = _
  rw [hx]
  exact floorDiv2_word .host v hv

/-- The table jax prints for `iota // 2` over 32768 positions: entry `i` is the word of `i / 2`. -/
theorem tokTable_apply (hb : (⟨0, ![]⟩ : Shape).BroadcastsInDim ⟨1, ![32768]⟩ ![]) (i : Fin 32768) :
    select
        (andi (cmpi .ne (signi (iotaInDim ⟨1, ![32768]⟩ 32 0))
            (broadcastInDim ⟨1, ![32768]⟩ ![] hb (signi (constantI ⟨0, ![]⟩ 32 2#32))))
          (cmpi .ne (Host.remsi (iotaInDim ⟨1, ![32768]⟩ 32 0) (broadcastInDim ⟨1, ![32768]⟩ ![] hb (constantI ⟨0, ![]⟩ 32 2#32)))
            (broadcastInDim ⟨1, ![32768]⟩ ![] hb (constantI ⟨0, ![]⟩ 32 0#32))))
        (subi (Host.divsi (iotaInDim ⟨1, ![32768]⟩ 32 0) (broadcastInDim ⟨1, ![32768]⟩ ![] hb (constantI ⟨0, ![]⟩ 32 2#32)))
          (broadcastInDim ⟨1, ![32768]⟩ ![] hb (constantI ⟨0, ![]⟩ 32 1#32)))
        (Host.divsi (iotaInDim ⟨1, ![32768]⟩ 32 0) (broadcastInDim ⟨1, ![32768]⟩ ![] hb (constantI ⟨0, ![]⟩ 32 2#32)))
        (ix1 i)
      = BitVec.ofNat 32 (i.val / 2) :=
  floorDiv2_apply ![] hb (iotaInDim ⟨1, ![32768]⟩ 32 0) (ix1 i) i.val (by have := i.isLt; omega) (iotaInDim_ix1 32 i)

end Cert.Moe

end
-- ==== Proof.LibRemainder.lean ====
/-
  The floored remainder of 32-bit index words, for naturals `v`, `d` below `2^31` with `d` positive, written as
  the words `BitVec.ofNat 32 v` and `BitVec.ofNat 32 d`.  No program is imported.

  The remainder of signed integers that rounds the quotient toward minus infinity is printed as a chain: the
  truncated remainder `r = x rem d` (the sign of the dividend), then `r + d` where `r` is not zero and the signs of
  `r` and `d` differ, else `r`.

  * `remsi_pos`: on such words the truncated signed remainder is the word of `v % d` — both sign bits are clear, so
    it is the unsigned remainder, and a positive divisor is no corner of signed division.
  * `slt_zero_word`: such a word is not negative.
  * `floorRem_word`: the whole chain on such words is the word of `v % d` — neither `r` nor `d` is negative, so
    the correction never applies.
  * `floorRem_apply`: the same chain of vector operations read at one index of any shape, the divisor and the
    constant `0` being rank-0 constant tables broadcast to the shape.
-/
import Idealize.ShloMosaic.PureOps
import Idealize.ShloMosaic.Lib.ValueIdx
import proofs.«141991_j40252433498313_2_alg».proof.Proof.LibIndexWords

noncomputable section

namespace Cert.Moe

open Idealize.ShloMosaic Idealize.ShloMosaic.ValueIdx

/-! ## On words -/

/-- Dividing by the word of a positive natural below `2^31` is not a corner of signed division: the divisor is
    neither zero nor minus one. -/
theorem not_sdivCorner_pos (x : BitVec 32) (d : Nat) (hd0 : d ≠ 0) (hd : d < 2 ^ 31) :
    ¬ IntOp.SDivCorner x (BitVec.ofNat 32 d) := by
  unfold IntOp.SDivCorner
  rintro (h | ⟨_, h⟩)
  · exact idxWord_ne_zero d hd hd0 h
  · have h' := congrArg BitVec.toNat h
    rw [idxWord_toNat d hd] at h'
    have h1 : (-1 : BitVec 32).toNat = 4294967295 := by decide
    omega

/-- The truncated signed remainder of the word of `v` by the word of a positive `d` is the word of `v % d`. -/
theorem remsi_pos (u : ArithUnit) (v d : Nat) (hv : v < 2 ^ 31) (hd0 : d ≠ 0) (hd : d < 2 ^ 31) :
    IntOp.remsi u (BitVec.ofNat 32 v) (BitVec.ofNat 32 d) = BitVec.ofNat 32 (v % d) := by
  have hm : v % d < 2 ^ 31 := lt_of_le_of_lt (Nat.mod_le v d) hv
  unfold IntOp.remsi
  rw [if_neg (not_sdivCorner_pos _ d hd0 hd), BitVec.srem_eq, idxWord_msb v hv, idxWord_msb d hd]
  show (BitVec.ofNat 32 v) % (BitVec.ofNat 32 d) = _
  apply BitVec.eq_of_toNat_eq
  rw [BitVec.toNat_umod, idxWord_toNat v hv, idxWord_toNat d hd, idxWord_toNat (v % d) hm]

/-- The word of a natural below `2^31` is not negative. -/
theorem slt_zero_word (v : Nat) (hv : v < 2 ^ 31) : IntOp.cmpi .slt (BitVec.ofNat 32 v) 0#32 = 0#1 := by
  show BitVec.ofBool ((BitVec.ofNat 32 v).slt 0#32) = 0#1
  have hlt : ¬ ((v : Int) < 0) := by omega
  rw [BitVec.slt_eq_decide, idxWord_toInt v hv, BitVec.toInt_zero, decide_eq_false hlt]
  rfl

/-- The floored remainder on the words of naturals `v`, `d` below `2^31`, `d` positive: the truncated remainder,
    plus the divisor where it is not zero and its sign differs from the divisor's, is the word of `v % d`. -/
theorem floorRem_word (u : ArithUnit) (v d : Nat) (hv : v < 2 ^ 31) (hd0 : d ≠ 0) (hd : d < 2 ^ 31) :
    Scalar.select
        (IntOp.andi
          (IntOp.cmpi .ne (IntOp.cmpi .slt (IntOp.remsi u (BitVec.ofNat 32 v) (BitVec.ofNat 32 d)) 0#32)
            (IntOp.cmpi .slt (BitVec.ofNat 32 d) 0#32))
          (IntOp.cmpi .ne (IntOp.remsi u (BitVec.ofNat 32 v) (BitVec.ofNat 32 d)) 0#32))
        (IntOp.addi (IntOp.remsi u (BitVec.ofNat 32 v) (BitVec.ofNat 32 d)) (BitVec.ofNat 32 d))
        (IntOp.remsi u (BitVec.ofNat 32 v) (BitVec.ofNat 32 d))
      = BitVec.ofNat 32 (v % d) := by
  have hm : v % d < 2 ^ 31 := lt_of_le_of_lt (Nat.mod_le v d) hv
  rw [remsi_pos u v d hv hd0 hd, slt_zero_word (v % d) hm, slt_zero_word d hd]
  have h : IntOp.cmpi .ne (0#1) (0#1) = 0#1 := by decide
  have h2 : ∀ y : BitVec 1, IntOp.andi 0#1 y = 0#1 := fun y => BitVec.zero_and
  rw [h, h2, select_zero]

/-! ## The same chain of vector operations, read at an index -/

/-- The floored-remainder chain over any table `x`, the divisor `d` and the constant `0` being rank-0 constant
    tables broadcast to the shape, read at an index where `x` holds the word of a natural `v < 2^31`. -/
theorem floorRem_apply {t : Shape} (dims : Fin (⟨0, ![]⟩ : Shape).rank → Fin t.rank)
    (hb : (⟨0, ![]⟩ : Shape).BroadcastsInDim t dims) (x : IVec t 32) (j : t.Idx) (v d : Nat) (hv : v < 2 ^ 31)
    (hd0 : d ≠ 0) (hd : d < 2 ^ 31) (hx : x j = BitVec.ofNat 32 v) :
    select
        (andi
          (cmpi .ne
            (cmpi .slt (Host.remsi x (broadcastInDim t dims hb (constantI ⟨0, ![]⟩ 32 (BitVec.ofNat 32 d))))
              (broadcastInDim t dims hb (constantI ⟨0, ![]⟩ 32 0#32)))
            (broadcastInDim t dims hb
              (cmpi .slt (constantI ⟨0, ![]⟩ 32 (BitVec.ofNat 32 d)) (constantI ⟨0, ![]⟩ 32 0#32))))
          (cmpi .ne (Host.remsi x (broadcastInDim t dims hb (constantI ⟨0, ![]⟩ 32 (BitVec.ofNat 32 d))))
            (broadcastInDim t dims hb (constantI ⟨0, ![]⟩ 32 0#32))))
        (addi (Host.remsi x (broadcastInDim t dims hb (constantI ⟨0, ![]⟩ 32 (BitVec.ofNat 32 d))))
          (broadcastInDim t dims hb (constantI ⟨0, ![]⟩ 32 (BitVec.ofNat 32 d))))
        (Host.remsi x (broadcastInDim t dims hb (constantI ⟨0, ![]⟩ 32 (BitVec.ofNat 32 d)))) j
      = BitVec.ofNat 32 (v % d) := by
  show Scalar.select
        (IntOp.andi
          (IntOp.cmpi .ne (IntOp.cmpi .slt (IntOp.remsi .host (x j) (BitVec.ofNat 32 d)) 0#32)
            (IntOp.cmpi .slt (BitVec.ofNat 32 d) 0#32))
          (IntOp.cmpi .ne (IntOp.remsi .host (x j) (BitVec.ofNat 32 d)) 0#32))
        (IntOp.addi (IntOp.remsi .host (x j) (BitVec.ofNat 32 d)) (BitVec.ofNat 32 d))
        (IntOp.remsi .host (x j) (BitVec.ofNat 32 d)) = _
  rw [hx]
  exact floorRem_word .host v d hv hd0 hd

end Cert.Moe

end
-- ==== Proof.RefValue.lean ====
/-
  The reference's composed term is the table of relative-position rows.

  The composed term of the reference's run gathers rows of the table argument at a closed table of indices and repeats
  them along a new leading axis of 32.  The index of position `s` is `s mod 8`: the positions `0 … 4095` are
  non-negative words, so the truncated remainder by 8 is the unsigned one, it is non-negative as the divisor is, and
  neither the floor correction nor the wrap of a negative index applies; and `s mod 8 < 8` is inside the table, so
  the gather's clamp leaves it.  Read at `(b, s, e)` the term is therefore entry `(s mod 8, e)` of the argument.
-/
import proofs.«141991_j40252433498313_2_alg».proof.Proof.RefRun
import proofs.«141991_j40252433498313_2_alg».proof.Proof.RelPos
import proofs.«141991_j40252433498313_2_alg».proof.Proof.LibGatherRows
import proofs.«141991_j40252433498313_2_alg».proof.Proof.LibIndexWords
import proofs.«141991_j40252433498313_2_alg».proof.Proof.LibRemainder
import Idealize.ShloMosaic.Lib.Pipeline.Value
import Idealize.ShloMosaic.PureOps.Ideal

noncomputable section

namespace Cert.ReferenceIdeal.RefValue

open Cert.ReferenceIdeal Cert.ReferenceIdeal.Gen Idealize.ShloMosaic Idealize.ShloMosaic.ValueIdx Idealize.ShloMosaic.TcCoe
  Idealize.SL.Sem Cert.Moe

/-! ## The index table, read at a position -/

/-- The divisor `8`, replaced by `1` were it `0`, is `8`. -/
theorem divisor_word : Scalar.select (IntOp.cmpi .eq 8#32 0#32) 1#32 8#32 = 8#32 := by decide

/-- The divisor table holds `8`. -/
theorem divisor_eq : divisor = constantI S_ 32 8#32 := funext fun _ => divisor_word

/-- The floored remainder of position `s` is the word of `s % 8`. -/
theorem rem_apply (s : Fin 4096) : rem (ix1 s) = BitVec.ofNat 32 (s.val % 8) := by
  unfold rem rem0
  rw [divisor_eq]
  exact floorRem_word .host s.val 8 (by have := s.isLt; omega) (by norm_num) (by norm_num)

/-- The row index of position `s` is the word of `s % 8`: it is not negative, so it is not wrapped. -/
theorem idx_apply (s : Fin 4096) : idx (ix1 s) = BitVec.ofNat 32 (s.val % 8) := by
  show Scalar.select (IntOp.cmpi .slt (rem (ix1 s)) 0#32) (IntOp.addi (rem (ix1 s)) 8#32) (rem (ix1 s)) = _
  rw [rem_apply]
  exact wrap_word 8#32 (s.val % 8) (by omega)

/-! ## The composed term is the table -/

/-- The reference's composed term of the table argument is the table of relative-position rows. -/
theorem result_eq (E : FVec Ideal S8x256 .f32) : out (F := Ideal) E = Cert.RelPos.table E := by
  funext j
  obtain ⟨b, s, e, rfl⟩ : ∃ (b : Fin 32) (s : Fin 4096) (e : Fin 256), j = ix3 b s e := ⟨j 0, j 1, j 2, eq_ix3 j⟩
  rw [Cert.RelPos.table_apply]
  unfold out
  rw [broadcastInDim_apply _ _ _ (ix3 b s e) (ix3 (0 : Fin 1) s e)
      (by intro a; match a with | ⟨0, _⟩ => rfl | ⟨1, _⟩ => rfl | ⟨2, _⟩ => rfl),
    broadcastInDim_apply _ _ _ (ix3 (0 : Fin 1) s e) (ix2 s e)
      (by intro a; match a with | ⟨0, _⟩ => rfl | ⟨1, _⟩ => rfl)]
  have hI : broadcastInDim S4096x1 ![0] bcast_S4096_S4096x1_0 idx (ix2 s (0 : Fin 1)) = BitVec.ofNat 32 (s.val % 8) := by
    rw [broadcastInDim_apply _ _ _ (ix2 s (0 : Fin 1)) (ix1 s) (by intro a; match a with | ⟨0, _⟩ => rfl)]
    exact idx_apply s
  show Host.gather (rowDims 8 256 4096 gather_S8x256_S4096x1_S4096x256_1_0_n_n_0_1_1256_wf) E
      (broadcastInDim S4096x1 ![0] bcast_S4096_S4096x1_0 idx) (ix2 s e) = _
  rw [gather_rows_apply (by norm_num)]
  refine congrArg (fun r : Fin 8 => E (ix2 r e)) (Fin.ext ?_)
  show min (broadcastInDim S4096x1 ![0] bcast_S4096_S4096x1_0 idx (ix2 s (0 : Fin 1))).toInt.toNat (8 - 1) = s.val % 8
  rw [hI]
  exact clamp_word (s.val % 8) 8 (Nat.mod_lt _ (by norm_num)) (by norm_num)

/-- The reference's run with its result as the table: every weakly fair execution of the main function terminates
    with the result at the table of relative-position rows of the table argument, and the arguments unchanged. -/
theorem run_table (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v10)
            = Cert.RelPos.table (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run _ _ _).mono (fun _ h c => ⟨(h c).1.trans (result_eq _), (h c).2⟩) (run (F := Ideal) m ρ)

end Cert.ReferenceIdeal.RefValue

end
-- ==== Proof.lean ====
/-
  The relative-position table: a tiled kernel that fills its output by copying, against the indexing reference.

  Both programs compute, from an embedding table `E` of 8 rows of 256 entries, the array `out[b, s, e] = E[s mod 8, e]`
  over 32 batches of 4096 tokens (the first argument only fixes the shape; neither program reads it).

  * The kernel runs on a 2 × 4 grid; each point fills one block of 16 batches by 1024 tokens.  Its body repeats the
    table 128 times into a tile of 1024 rows and stores that tile once per batch row of the block, in a loop of 16 trips.
    Row `r` of the tile is row `r mod 8` of the table, and a block starts at a token that is a multiple of 8, so every
    block is the restriction of `RelPos.table E`; the blocks tile the array (KernelRows, KernelTrips, KernelValue).
  * The reference computes the row index of token `s` as the floored remainder of `s` by 8 (a truncated remainder with a
    sign correction that never applies to a non-negative `s`), wraps a negative index (never the case), gathers the
    rows (the clamp of an index below 8 into `[0, 7]` is the identity) and repeats the result over the batches: again
    `RelPos.table E` (RefRun, RefValue).

  No arithmetic is done on the entries, so nothing needs them finite: the precondition is never opened.  The word-level
  kernel and its idealization are the same text (no rewrite was applied), so the preservation claim is trivial; the three
  frames are the generated frames of the two kernels and the reference's run with its result dropped.
-/
import proofs.«141991_j40252433498313_2_alg».proof.Defs
import proofs.«141991_j40252433498313_2_alg».proof.Proof.Gen.Kernel
import proofs.«141991_j40252433498313_2_alg».proof.Proof.Gen.Kernel.Skeleton
import proofs.«141991_j40252433498313_2_alg».proof.Proof.Gen.Kernel.Loops
import proofs.«141991_j40252433498313_2_alg».proof.Proof.Gen.Kernel.Launch
import proofs.«141991_j40252433498313_2_alg».proof.Proof.Gen.Kernel.Points
import proofs.«141991_j40252433498313_2_alg».proof.Proof.Gen.Kernel.Frame
import proofs.«141991_j40252433498313_2_alg».proof.Proof.Gen.KernelIdeal
import proofs.«141991_j40252433498313_2_alg».proof.Proof.Gen.KernelIdeal.Skeleton
import proofs.«141991_j40252433498313_2_alg».proof.Proof.Gen.KernelIdeal.Loops
import proofs.«141991_j40252433498313_2_alg».proof.Proof.Gen.KernelIdeal.Launch
import proofs.«141991_j40252433498313_2_alg».proof.Proof.Gen.KernelIdeal.Points
import proofs.«141991_j40252433498313_2_alg».proof.Proof.Gen.KernelIdeal.Frame
import proofs.«141991_j40252433498313_2_alg».proof.Proof.Gen.ReferenceIdeal
import proofs.«141991_j40252433498313_2_alg».proof.Proof.Gen.Pre_finite_inputs
import proofs.«141991_j40252433498313_2_alg».proof.Proof.KernelValue
import proofs.«141991_j40252433498313_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run (Cert.ReferenceIdeal.defs (F := Ideal)) _ _).mono (fun _ h c => (h c).2)
    (Cert.ReferenceIdeal.RefValue.run_table m ρ)

/-- Both programs end with the result array at `RelPos.table` of the table argument; the two table arguments agree. -/
theorem algebraic : Cert.algebraic_KernelIdeal_ReferenceIdeal := by
  intro m g m' g' _ hagree
  refine ⟨fun c => Cert.RelPos.table (m ((c.tc : Thread Cert.KernelIdeal.nD Cert.KernelIdeal.τ).loc Cert.KernelIdeal.main_arg1)),
    Cert.KernelIdeal.Blocks.run (F := Ideal) m g, ?_⟩
  refine (θ_run (Cert.ReferenceIdeal.defs (F := Ideal)) _ _).mono (fun _ h c => ⟨(h c).1.trans ?_, (h c).2⟩)
    (Cert.ReferenceIdeal.RefValue.run_table m' g')
  rw [(hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
